-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S32x16 .f32) (main_arg5 : FVec F S16 .f32) (main_arg6 : FVec F S16x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 96
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S100000x32, .f32⟩
  | .hbm, ⟨42, _⟩ => ⟨S3300000x1, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x32, .f32⟩
  | .hbm, ⟨52, _⟩ => ⟨S3300000x32, .f32⟩
  | .hbm, ⟨53, _⟩ => ⟨S3300000x32, .f32⟩
  | .hbm, ⟨54, _⟩ => ⟨S_, .f32⟩
  | .hbm, ⟨55, _⟩ => ⟨S100000x32, .f32⟩
  | .hbm, ⟨56, _⟩ => ⟨S3300000x1, .i32⟩
  | .hbm, ⟨57, _⟩ => ⟨S100000x32, .f32⟩
  | .hbm, ⟨58, _⟩ => ⟨S1x32, .f32⟩
  | .hbm, ⟨59, _⟩ => ⟨S100000x16, .f32⟩
  | .hbm, ⟨60, _⟩ => ⟨S3300000x1, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x16, .f32⟩
  | .hbm, ⟨70, _⟩ => ⟨S3300000x16, .f32⟩
  | .hbm, ⟨71, _⟩ => ⟨S3300000x16, .f32⟩
  | .hbm, ⟨72, _⟩ => ⟨S_, .f32⟩
  | .hbm, ⟨73, _⟩ => ⟨S100000x16, .f32⟩
  | .hbm, ⟨74, _⟩ => ⟨S3300000x1, .i32⟩
  | .hbm, ⟨75, _⟩ => ⟨S100000x16, .f32⟩
  | .hbm, ⟨76, _⟩ => ⟨S1x16, .f32⟩
  | .hbm, ⟨77, _⟩ => ⟨S100000x1, .f32⟩
  | .hbm, ⟨78, _⟩ => ⟨S3300000x1, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000x1, .f32⟩
  | .hbm, ⟨88, _⟩ => ⟨S3300000x1, .f32⟩
  | .hbm, ⟨89, _⟩ => ⟨S_, .f32⟩
  | .hbm, ⟨90, _⟩ => ⟨S100000x1, .f32⟩
  | .hbm, ⟨91, _⟩ => ⟨S3300000x1, .i32⟩
  | .hbm, ⟨92, _⟩ => ⟨S100000x1, .f32⟩
  | .hbm, ⟨93, _⟩ => ⟨S1x1, .f32⟩
  | .hbm, ⟨94, _⟩ => ⟨S100000x1, .f32⟩
  | .hbm, ⟨95, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x1, .f32⟩
  | .local _ .vmem, ⟨15, _⟩ => ⟨S10000x1, .f32⟩
  | .local _ .vmem, ⟨16, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S100000x32, .f32⟩
  | .hbm, ⟨42, _⟩ => ⟨S3300000x1, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x32, .f32⟩
  | .hbm, ⟨52, _⟩ => ⟨S3300000x32, .f32⟩
  | .hbm, ⟨53, _⟩ => ⟨S3300000x32, .f32⟩
  | .hbm, ⟨54, _⟩ => ⟨S_, .f32⟩
  | .hbm, ⟨55, _⟩ => ⟨S100000x32, .f32⟩
  | .hbm, ⟨56, _⟩ => ⟨S3300000x1, .i32⟩
  | .hbm, ⟨57, _⟩ => ⟨S100000x32, .f32⟩
  | .hbm, ⟨58, _⟩ => ⟨S1x32, .f32⟩
  | .hbm, ⟨59, _⟩ => ⟨S100000x32, .f32⟩
  | .hbm, ⟨60, _⟩ => ⟨S100000x32, .f32⟩
  | .hbm, ⟨61, _⟩ => ⟨S_, .f32⟩
  | .hbm, ⟨62, _⟩ => ⟨S100000x32, .f32⟩
  | .hbm, ⟨63, _⟩ => ⟨S100000x32, .f32⟩
  | .hbm, ⟨64, _⟩ => ⟨S100000x16, .f32⟩
  | .hbm, ⟨65, _⟩ => ⟨S3300000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x16, .f32⟩
  | .hbm, ⟨75, _⟩ => ⟨S3300000x16, .f32⟩
  | .hbm, ⟨76, _⟩ => ⟨S3300000x16, .f32⟩
  | .hbm, ⟨77, _⟩ => ⟨S_, .f32⟩
  | .hbm, ⟨78, _⟩ => ⟨S100000x16, .f32⟩
  | .hbm, ⟨79, _⟩ => ⟨S3300000x1, .i32⟩
  | .hbm, ⟨80, _⟩ => ⟨S100000x16, .f32⟩
  | .hbm, ⟨81, _⟩ => ⟨S1x16, .f32⟩
  | .hbm, ⟨82, _⟩ => ⟨S100000x16, .f32⟩
  | .hbm, ⟨83, _⟩ => ⟨S100000x16, .f32⟩
  | .hbm, ⟨84, _⟩ => ⟨S_, .f32⟩
  | .hbm, ⟨85, _⟩ => ⟨S100000x16, .f32⟩
  | .hbm, ⟨86, _⟩ => ⟨S100000x16, .f32⟩
  | .hbm, ⟨87, _⟩ => ⟨S100000x1, .f32⟩
  | .hbm, ⟨88, _⟩ => ⟨S3300000x1, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x1, .f32⟩
  | .hbm, ⟨98, _⟩ => ⟨S3300000x1, .f32⟩
  | .hbm, ⟨99, _⟩ => ⟨S_, .f32⟩
  | .hbm, ⟨100, _⟩ => ⟨S100000x1, .f32⟩
  | .hbm, ⟨101, _⟩ => ⟨S3300000x1, .i32⟩
  | .hbm, ⟨102, _⟩ => ⟨S100000x1, .f32⟩
  | .hbm, ⟨103, _⟩ => ⟨S1x1, .f32⟩
  | .hbm, ⟨104, _⟩ => ⟨S100000x1, .f32⟩
  | .hbm, ⟨105, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Spec.lean ====
/-
  The three-layer graph convolution as pure functions of the argument arrays, at the ideal instance.

  From the edge list e : i32[2, 3200000] and the node count N = 100000:
    src = e[0] ++ (0 … N-1),  dst = e[1] ++ (0 … N-1)          (self loops appended)
    deg = Σ over edges j with dst j = n of 1,  dis = deg^(-1/2),  norm j = dis[src j] · dis[dst j]
  One aggregation of a node table h : [N, d] is  agg h n = Σ over edges j with dst j = n of norm j · h[src j]
  (a gather by the source ends, a scaling by the edge weights, a scatter-add by the destination ends).
  One dense layer is  lin X W (r, c) = Σ_k X (r, k) · W (k, c), and between layers a bias is added and the
  negative part dropped:  act A b (r, c) = max (A (r, c) + b (0, c)) 0.
  The network is  agg (lin (act (agg (lin (act (agg (lin x W1)) b1) W2)) b2) W3) + b3.
-/
import proofs.«153207_j16724602650757_1_alg».proof.Proof.Gen.KernelIdeal
import Idealize.ShloMosaic.Lib.ValueIdx
import Idealize.ShloMosaic.PureOps.Ideal

noncomputable section

open scoped BigOperators

namespace Cert.KernelIdeal.Spec

open Cert.KernelIdeal Cert.KernelIdeal.Gen Idealize.ShloMosaic Idealize.ShloMosaic.ValueIdx

/-- An integer array and a float array of a shape, at the ideal instance. -/
abbrev IArr (S : Shape) := (⟨S, .i32⟩ : BufTy).Contents (Elt Ideal)
abbrev FArr (S : Shape) := (⟨S, .f32⟩ : BufTy).Contents (Elt Ideal)

/-! ## The edges -/

/-- One row of the edge list followed by the node numbers 0 … N-1 (the self loops). -/
def srcEnds (e : IArr S2x3200000) : IArr S3300000 :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0
def dstEnds (e : IArr S2x3200000) : IArr S3300000 :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

/-- A negative node number counts from the end: n < 0 ↦ n + N. -/
def wrap (v : IArr S3300000) : IArr S3300000 :=
  select (cmpi .slt v (broadcastInDim S3300000 ![] bcast_S_S3300000 (constantI S_ 32 0#32)))
    (addi v (broadcastInDim S3300000 ![] bcast_S_S3300000 (constantI S_ 32 100000#32))) v

/-- A list of node numbers as a one-column table of start indices. -/
def asColumn (v : IArr S3300000) : IArr S3300000x1 := broadcastInDim S3300000x1 ![0] bcast_S3300000_S3300000x1_0 v

/-- deg^(-1/2): the degree counts the edges arriving at a node. -/
def invSqrtDeg (e : IArr S2x3200000) : FArr S100000 :=
  Host.rsqrt (F := Ideal) (Host.scatterAdd (F := Ideal) scatter_S100000_S3300000x1_S3300000_n_0_0_1
    (broadcastInDim S100000 ![] bcast_S_S100000 (constant (F := Ideal) S_ .f32 0x00000000#32))
    (asColumn (dstEnds e))
    (broadcastInDim S3300000 ![] bcast_S_S3300000 (constant (F := Ideal) S_ .f32 0x3F800000#32)))

/-- The edge weights dis[src] · dis[dst]. -/
def edgeNorm (e : IArr S2x3200000) : FArr S3300000 :=
  mulf (F := Ideal) (φ := .f32) (Host.gather gather_S100000_S3300000x1_S3300000_n_0_n_n_0_1_1 (invSqrtDeg e) (asColumn (wrap (srcEnds e))))
    (Host.gather gather_S100000_S3300000x1_S3300000_n_0_n_n_0_1_1 (invSqrtDeg e) (asColumn (wrap (dstEnds e))))

/-- The edge weights as a one-column table. -/
def edgeNormCol (e : IArr S2x3200000) : FArr S3300000x1 := broadcastInDim S3300000x1 ![0] bcast_S3300000_S3300000x1_0 (edgeNorm e)

/-! ## One aggregation, at each of the three widths -/

def agg32 (h : FArr S100000x32) (e : IArr S2x3200000) : FArr S100000x32 :=
  Host.scatterAdd (F := Ideal) scatter_S100000x32_S3300000x1_S3300000x32_1_0_0_1
    (broadcastInDim S100000x32 ![] bcast_S_S100000x32 (constant (F := Ideal) S_ .f32 0x00000000#32))
    (asColumn (dstEnds e))
    (mulf (broadcastInDim S3300000x32 ![0, 1] bcast_S3300000x1_S3300000x32_0_1 (edgeNormCol e))
      (Host.gather gather_S100000x32_S3300000x1_S3300000x32_1_0_n_n_0_1_132 h (asColumn (wrap (srcEnds e)))))

def agg16 (h : FArr S100000x16) (e : IArr S2x3200000) : FArr S100000x16 :=
  Host.scatterAdd (F := Ideal) scatter_S100000x16_S3300000x1_S3300000x16_1_0_0_1
    (broadcastInDim S100000x16 ![] bcast_S_S100000x16 (constant (F := Ideal) S_ .f32 0x00000000#32))
    (asColumn (dstEnds e))
    (mulf (broadcastInDim S3300000x16 ![0, 1] bcast_S3300000x1_S3300000x16_0_1 (edgeNormCol e))
      (Host.gather gather_S100000x16_S3300000x1_S3300000x16_1_0_n_n_0_1_116 h (asColumn (wrap (srcEnds e)))))

def agg1 (h : FArr S100000x1) (e : IArr S2x3200000) : FArr S100000x1 :=
  Host.scatterAdd (F := Ideal) scatter_S100000x1_S3300000x1_S3300000x1_1_0_0_1
    (broadcastInDim S100000x1 ![] bcast_S_S100000x1 (constant (F := Ideal) S_ .f32 0x00000000#32))
    (asColumn (dstEnds e))
    (mulf (edgeNormCol e)
      (Host.gather gather_S100000x1_S3300000x1_S3300000x1_1_0_n_n_0_1_11 h (asColumn (wrap (srcEnds e)))))

/-! ## The dense layers -/

/-- The entry (r, k) on the row of an index of an [a, b] table, and the entry (k, c) on its column. -/
abbrev onRow {a b n : Nat} (i : (⟨2, ![a, b]⟩ : Shape).Idx) (k : Fin n) : (⟨2, ![a, n]⟩ : Shape).Idx :=
  ix2 (⟨(i 0).val, idx2_lt0 i⟩ : Fin a) k
abbrev onCol {a b n : Nat} (i : (⟨2, ![a, b]⟩ : Shape).Idx) (k : Fin n) : (⟨2, ![n, b]⟩ : Shape).Idx :=
  ix2 k (⟨(i 1).val, idx2_lt1 i⟩ : Fin b)

/-- The matrix product, entry by entry. -/
def lin {a n b : Nat} (X : (⟨2, ![a, n]⟩ : Shape).Idx → EReal) (W : (⟨2, ![n, b]⟩ : Shape).Idx → EReal) :
    (⟨2, ![a, b]⟩ : Shape).Idx → EReal :=
  fun i => ∑ k : Fin n, X (onRow i k) * W (onCol i k)

/-- Bias (a one-row table) added, negative part dropped. -/
def act {a n : Nat} (A : (⟨2, ![a, n]⟩ : Shape).Idx → EReal) (B : (⟨2, ![1, n]⟩ : Shape).Idx → EReal) :
    (⟨2, ![a, n]⟩ : Shape).Idx → EReal :=
  fun i => max (A i + B (ix2 (0 : Fin 1) (⟨(i 1).val, idx2_lt1 i⟩ : Fin n))) 0

/-! ## The network, stage by stage -/

/-- A bias vector as a one-row table. -/
def rowBias32 (b : FArr S32) : FArr S1x32 := shapeCast S1x32 b shapeCasts_S32_S1x32
def rowBias16 (b : FArr S16) : FArr S1x16 := shapeCast S1x16 b shapeCasts_S16_S1x16

/-- The first aggregation (before its bias and relu). -/
def hidden1 (x : FArr S100000x128) (e : IArr S2x3200000) (W1 : FArr S128x32) : FArr S100000x32 :=
  agg32 (lin x W1) e
/-- The second aggregation. -/
def hidden2 (x : FArr S100000x128) (e : IArr S2x3200000) (W1 : FArr S128x32) (b1 : FArr S32) (W2 : FArr S32x16) : FArr S100000x16 :=
  agg16 (lin (act (hidden1 x e W1) (rowBias32 b1)) W2) e
/-- The third aggregation. -/
def hidden3 (x : FArr S100000x128) (e : IArr S2x3200000) (W1 : FArr S128x32) (b1 : FArr S32) (W2 : FArr S32x16)
    (b2 : FArr S16) (W3 : FArr S16x1) : FArr S100000x1 :=
  agg1 (lin (act (hidden2 x e W1 b1 W2) (rowBias16 b2)) W3) e
/-- The output: the third aggregation plus the last bias on every row. -/
def output (x : FArr S100000x128) (e : IArr S2x3200000) (W1 : FArr S128x32) (b1 : FArr S32) (W2 : FArr S32x16)
    (b2 : FArr S16) (W3 : FArr S16x1) (b3 : FArr S1) : FArr S100000x1 :=
  addf (F := Ideal) (φ := .f32) (hidden3 x e W1 b1 W2 b2 W3)
    (broadcastInDim S100000x1 ![0, 1] bcast_S1x1_S100000x1_0_1 (shapeCast S1x1 b3 shapeCasts_S1_S1x1))

end Cert.KernelIdeal.Spec

end
-- ==== Proof.Result.lean ====
/-
  The idealized kernel's run, read at its result: every weakly fair execution of @main terminates with the result
  buffer holding the contents of the last segment boundary — the launch memory carried through the four host
  stretches and the three regions' write-backs — and with the eight argument arrays as launched.
-/
import proofs.«153207_j16724602650757_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents of the last boundary, the arguments as launched. -/
theorem run : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Result

end
-- ==== Proof.Dense0.lean ====
/-
  The first dense layer, x · W1, as the first region leaves it.  The grid has ten points; point t stages rows
  10000·t … 10000·t + 9999 of x and all of W1, multiplies the two blocks (the narrowing of both operands to bf16 is the
  identity on extended reals, and the accumulator starts at zero), and writes the product back as rows
  10000·t … 10000·t + 9999 of the result.  Row r of a block product depends only on row r of the left block, so every
  written block is the restriction of the one matrix product  lin x W1  of the whole arrays, and the ten blocks tile the
  result: after the region the result array is  lin x W1.
-/
import proofs.«153207_j16724602650757_1_alg».proof.Proof.Gen.KernelIdeal.Frame
import proofs.«153207_j16724602650757_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense0

open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The block product, entry by entry -/

theorem lhs_row (y : S10000x32.Idx) (q : dot_S10000x128_S128x32_S10000x32_1_0_0_1_n_n.contr.Idx) :
    (dot_S10000x128_S128x32_S10000x32_1_0_0_1_n_n.lhsIdx y q 0).val = (y 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_k (y : S10000x32.Idx) (q : dot_S10000x128_S128x32_S10000x32_1_0_0_1_n_n.contr.Idx) :
    (dot_S10000x128_S128x32_S10000x32_1_0_0_1_n_n.lhsIdx y q 1).val = (q ⟨0, by decide⟩).val :=
  dot_S10000x128_S128x32_S10000x32_1_0_0_1_n_n.lhsIdx_val_of_single rfl y q
theorem rhs_k (y : S10000x32.Idx) (q : dot_S10000x128_S128x32_S10000x32_1_0_0_1_n_n.contr.Idx) :
    (dot_S10000x128_S128x32_S10000x32_1_0_0_1_n_n.rhsIdx y q 0).val = (q ⟨0, by decide⟩).val :=
  dot_S10000x128_S128x32_S10000x32_1_0_0_1_n_n.rhsIdx_val_of_single rfl y q
theorem rhs_col (y : S10000x32.Idx) (q : dot_S10000x128_S128x32_S10000x32_1_0_0_1_n_n.contr.Idx) :
    (dot_S10000x128_S128x32_S10000x32_1_0_0_1_n_n.rhsIdx y q 1).val = (y 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry (p, q) of the body's product of a [10000,128] block and the [128,32] weights is Σ_k block (p, k) · W (k, q). -/
theorem pay_apply (x0 : Vec Ideal S10000x128 .f32) (x1 : Vec Ideal S128x32 .f32) (y : S10000x32.Idx) :
    k0_pay1 (F := Ideal) x0 x1 y = ∑ k : Fin 128, x0 (onRow y k) * x1 (onCol y k) := by
  unfold k0_pay1
  refine (Ideal.matmul_constant_zero_apply dot_S10000x128_S128x32_S10000x32_1_0_0_1_n_n none _ _ y).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx y ((contrEquiv1 dot_S10000x128_S128x32_S10000x32_1_0_0_1_n_n 128 rfl rfl).symm k) = onRow y k := funext fun a => Fin.ext (by
    match a with
    | ⟨0, _⟩ => exact lhs_row _ _
    | ⟨1, _⟩ => exact (lhs_k _ _).trans hk)
  have er : dot_S10000x128_S128x32_S10000x32_1_0_0_1_n_n.rhsIdx y ((contrEquiv1 dot_S10000x128_S128x32_S10000x32_1_0_0_1_n_n 128 rfl rfl).symm k) = onCol y k := funext fun a => Fin.ext (by
    match a with
    | ⟨0, _⟩ => exact (rhs_k _ _).trans hk
    | ⟨1, _⟩ => exact rhs_col _ _)
  rw [el, er]
  rfl

/-! ## From the blocks to the array -/

variable (V : (c : Dev nD) → (b : Ref sig .tc) → Buf (Elt Ideal) ((c : Thread nD τ).loc b))

/-- Where each window's block sits at point t: the row blocks move with t, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts t
  funext y
  refine (pay_apply _ _ y).trans ?_
  show _ = lin (V c main_arg0) (V c main_arg2) (((cfg0.win 2).blk t).view.emb y)
  unfold lin
  beta_reduce
  refine Finset.sum_congr rfl fun k _ => ?_
  have h0 : ((cfg0.win 0).blk t).view.emb (onRow y k) = onRow (((cfg0.win 2).blk t).view.emb y) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  have h1 : ((cfg0.win 1).blk t).view.emb (onCol y k) = onCol (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 32 + 1 * (y 1).val = win0_2.index t (1 : Fin 2) * 32 + 1 * (y 1).val; omega
  congr 1
  · show V c main_arg0 (((cfg0.win 0).blk t).view.emb (onRow y k)) = _
    rw [h0]
  · show V c main_arg2 (((cfg0.win 1).blk t).view.emb (onCol y k)) = _
    rw [h1]

/-- An index of the result is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v27).slice (win0_2.rect t)).set ↔ _
  rw [View.set_slice_whole, Rect.mem_set_unit]
  exact Iff.rfl

/-- Row r of the result is written by point r / 10000. -/
theorem cover (i : S100000x32.Idx) : ∃ t : Fin cfg0.N, (cfg0.win 2).flush t = true ∧ i ∈ ((cfg0.win 2).blk t).view.set := by
  have hi0 : (i 0).val < 100000 := idx2_lt0 i
  have hi1 : (i 1).val < 32 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨_, _, _, _, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- After the region the result array is the whole product. -/
theorem arr (c : Dev nD) : (dat0 V c).arrAt 2 cfg0.N = lin (V c main_arg0) (V c main_arg2) :=
  (dat0 V c).arrAt_eq_of_cover 2 (lin (V c main_arg0) (V c main_arg2)) (fun t _ => flushed_eq V c t) cover

end Cert.KernelIdeal.Dense0

end
-- ==== Proof.Dense1.lean ====
/-
  The second dense layer as its region leaves it.  Point t of the ten stages rows 10000·t … 10000·t + 9999 of
  the first aggregation A, the one-row bias b and all of the weights W; adds the bias to every row of the block, drops the
  negative part, and multiplies by W (narrowing both factors to bf16 is the identity on extended reals; the accumulator
  starts at zero).  Entry (r, c) of what it writes depends only on row r of the block, on b and on W, so each written
  block is the restriction of the one function  lin (act A b) W  of the whole arrays, and the ten blocks tile the result.
-/
import proofs.«153207_j16724602650757_1_alg».proof.Proof.Gen.KernelIdeal.Frame
import proofs.«153207_j16724602650757_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense1

open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body's value, entry by entry -/

theorem lhs_row (y : S10000x16.Idx) (q : dot_S10000x32_S32x16_S10000x16_1_0_0_1_n_n.contr.Idx) :
    (dot_S10000x32_S32x16_S10000x16_1_0_0_1_n_n.lhsIdx y q 0).val = (y 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs_k (y : S10000x16.Idx) (q : dot_S10000x32_S32x16_S10000x16_1_0_0_1_n_n.contr.Idx) :
    (dot_S10000x32_S32x16_S10000x16_1_0_0_1_n_n.lhsIdx y q 1).val = (q ⟨0, by decide⟩).val :=
  dot_S10000x32_S32x16_S10000x16_1_0_0_1_n_n.lhsIdx_val_of_single rfl y q
theorem rhs_k (y : S10000x16.Idx) (q : dot_S10000x32_S32x16_S10000x16_1_0_0_1_n_n.contr.Idx) :
    (dot_S10000x32_S32x16_S10000x16_1_0_0_1_n_n.rhsIdx y q 0).val = (q ⟨0, by decide⟩).val :=
  dot_S10000x32_S32x16_S10000x16_1_0_0_1_n_n.rhsIdx_val_of_single rfl y q
theorem rhs_col (y : S10000x16.Idx) (q : dot_S10000x32_S32x16_S10000x16_1_0_0_1_n_n.contr.Idx) :
    (dot_S10000x32_S32x16_S10000x16_1_0_0_1_n_n.rhsIdx y q 1).val = (y 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The left factor at an entry: the block's entry plus the bias of its column, negative part dropped. -/
theorem act_apply (x0 : Vec Ideal S10000x32 .f32) (x1 : Vec Ideal S1x32 .f32) (j : S10000x32.Idx) :
    maximumf (addf (shapeCast S10000x32 x0 shapeCasts_S10000x32_S10000x32) (broadcastTo S10000x32 (shapeCast S1x32 x1 shapeCasts_S1x32_S1x32) broadcasts_S1x32_S10000x32)) (broadcast S10000x32 (Scalar.ofBits (F := Ideal) .f32 0x00000000#32)) j
      = act x0 x1 j := by
  rw [shapeCast_self, shapeCast_self]
  show max (x0 j + broadcastTo S10000x32 x1 broadcasts_S1x32_S10000x32 j) (Ideal.ofBits .f32 0x00000000#32) = _
  rw [broadcastTo_apply x1 broadcasts_S1x32_S10000x32 j (ix2 (0 : Fin 1) (⟨(j 1).val, idx2_lt1 j⟩ : Fin 32)) (fun a => by
      match a with
      | ⟨0, _⟩ => show 0 = if (1 : Nat) = 1 then 0 else _; rw [if_pos rfl]
      | ⟨1, _⟩ => show (j 1).val = if (32 : Nat) = 1 then 0 else (j 1).val; rw [if_neg (by decide)]),
    Ideal.ofBits_zero_f32]
  rfl

/-- Entry (p, q) of what the body stores is Σ_k max (block (p, k) + b (0, k)) 0 · W (k, q). -/
theorem pay_apply (x0 : Vec Ideal S10000x32 .f32) (x1 : Vec Ideal S1x32 .f32) (x2 : Vec Ideal S32x16 .f32) (y : S10000x16.Idx) :
    k1_pay1 (F := Ideal) x0 x1 x2 y = ∑ k : Fin 32, act x0 x1 (onRow y k) * x2 (onCol y k) := by
  unfold k1_pay1
  refine (Ideal.matmul_constant_zero_apply dot_S10000x32_S32x16_S10000x16_1_0_0_1_n_n none _ _ y).trans ?_
  rw [← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx y ((contrEquiv1 dot_S10000x32_S32x16_S10000x16_1_0_0_1_n_n 32 rfl rfl).symm k) = onRow y k := funext fun a => Fin.ext (by
    match a with
    | ⟨0, _⟩ => exact lhs_row _ _
    | ⟨1, _⟩ => exact (lhs_k _ _).trans hk)
  have er : dot_S10000x32_S32x16_S10000x16_1_0_0_1_n_n.rhsIdx y ((contrEquiv1 dot_S10000x32_S32x16_S10000x16_1_0_0_1_n_n 32 rfl rfl).symm k) = onCol y k := funext fun a => Fin.ext (by
    match a with
    | ⟨0, _⟩ => exact (rhs_k _ _).trans hk
    | ⟨1, _⟩ => exact rhs_col _ _)
  rw [el, er]
  exact congrArg (· * x2 (onCol y k)) (act_apply x0 x1 (onRow y k))

/-! ## From the blocks to the array -/

variable (V : (c : Dev nD) → (b : Ref sig .tc) → Buf (Elt Ideal) ((c : Thread nD τ).loc b))

/-- Where each window's block sits at point t: the row blocks move with t, the bias and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole layer. -/
theorem flushed_eq (c : Dev nD) (t : Fin cfg1.N) :
    (dat1 V c).flushed 3 t = ((cfg1.win 3).blk t).view.read (Elt Ideal) (lin (act (V c main_v40) (V c main_v41)) (V c main_arg4)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x16) hz]
  obtain ⟨e0, e1, e2, e3, e4, e5, e6, e7⟩ := idx_facts t
  funext y
  refine (pay_apply _ _ _ y).trans ?_
  show _ = lin (act (V c main_v40) (V c main_v41)) (V c main_arg4) (((cfg1.win 3).blk t).view.emb y)
  unfold lin
  beta_reduce
  refine Finset.sum_congr rfl fun k _ => ?_
  have h0 : ((cfg1.win 0).blk t).view.emb (onRow y k) = onRow (((cfg1.win 3).blk t).view.emb y) k := by
    funext a; apply Fin.ext
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 32 + 1 * k.val = k.val; omega
  have h1 : ((cfg1.win 1).blk t).view.emb (ix2 (0 : Fin 1) (⟨((onRow y k) 1).val, idx2_lt1 (onRow y k)⟩ : Fin 32))
      = ix2 (0 : Fin 1) (⟨((onRow (((cfg1.win 3).blk t).view.emb y) k) 1).val, idx2_lt1 (onRow (((cfg1.win 3).blk t).view.emb y) k)⟩ : Fin 32) := by
    funext a; apply Fin.ext
    match a with
    | ⟨0, _⟩ => show win1_1.index t (0 : Fin 2) * 1 + 1 * 0 = 0; omega
    | ⟨1, _⟩ => show win1_1.index t (1 : Fin 2) * 32 + 1 * k.val = k.val; omega
  have h2 : ((cfg1.win 2).blk t).view.emb (onCol y k) = onCol (((cfg1.win 3).blk t).view.emb y) k := by
    funext a; apply Fin.ext
    match a with
    | ⟨0, _⟩ => show win1_2.index t (0 : Fin 2) * 32 + 1 * k.val = k.val; omega
    | ⟨1, _⟩ => show win1_2.index t (1 : Fin 2) * 16 + 1 * (y 1).val = win1_3.index t (1 : Fin 2) * 16 + 1 * (y 1).val; omega
  congr 1
  · unfold act
    beta_reduce
    congr 2
    · show V c main_v40 (((cfg1.win 0).blk t).view.emb (onRow y k)) = _
      rw [h0]
    · show V c main_v41 (((cfg1.win 1).blk t).view.emb (ix2 (0 : Fin 1) (⟨((onRow y k) 1).val, idx2_lt1 (onRow y k)⟩ : Fin 32))) = _
      rw [h1]
  · show V c main_arg4 (((cfg1.win 2).blk t).view.emb (onCol y k)) = _
    rw [h2]

/-- An index of the result is in point t's block iff each coordinate is in the block's range on its axis. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v42).slice (win1_3.rect t)).set ↔ _
  rw [View.set_slice_whole, Rect.mem_set_unit]
  exact Iff.rfl

/-- Row r of the result is written by point r / 10000. -/
theorem cover (i : S100000x16.Idx) : ∃ t : Fin cfg1.N, (cfg1.win 3).flush t = true ∧ i ∈ ((cfg1.win 3).blk t).view.set := by
  have hi0 : (i 0).val < 100000 := idx2_lt0 i
  have hi1 : (i 1).val < 16 := idx2_lt1 i
  have hN : cfg1.N = 10 := N_1
  obtain ⟨t, ht⟩ : ∃ t : Fin cfg1.N, t.val = (i 0).val / 10000 := ⟨⟨(i 0).val / 10000, by rw [hN]; omega⟩, rfl⟩
  obtain ⟨_, _, _, _, _, _, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- After the region the result array is the whole layer. -/
theorem arr (c : Dev nD) : (dat1 V c).arrAt 3 cfg1.N = lin (act (V c main_v40) (V c main_v41)) (V c main_arg4) :=
  (dat1 V c).arrAt_eq_of_cover 3 (lin (act (V c main_v40) (V c main_v41)) (V c main_arg4)) (fun t _ => flushed_eq V c t) cover

end Cert.KernelIdeal.Dense1

end
-- ==== Proof.Dense2.lean ====
/-
  The third dense layer as its region leaves it.  Point t of the ten stages rows 10000·t … 10000·t + 9999 of
  the second aggregation A, the one-row bias b and all of the weights W; adds the bias to every row of the block, drops the
  negative part, and multiplies by W (narrowing both factors to bf16 is the identity on extended reals; the accumulator
  starts at zero).  Entry (r, c) of what it writes depends only on row r of the block, on b and on W, so each written
  block is the restriction of the one function  lin (act A b) W  of the whole arrays, and the ten blocks tile the result.
-/
import proofs.«153207_j16724602650757_1_alg».proof.Proof.Gen.KernelIdeal.Frame
import proofs.«153207_j16724602650757_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense2

open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body's value, entry by entry -/

theorem lhs_row (y : S10000x1.Idx) (q : dot_S10000x16_S16x1_S10000x1_1_0_0_1_n_n.contr.Idx) :
    (dot_S10000x16_S16x1_S10000x1_1_0_0_1_n_n.lhsIdx y q 0).val = (y 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
theorem lhs_k (y : S10000x1.Idx) (q : dot_S10000x16_S16x1_S10000x1_1_0_0_1_n_n.contr.Idx) :
    (dot_S10000x16_S16x1_S10000x1_1_0_0_1_n_n.lhsIdx y q 1).val = (q ⟨0, by decide⟩).val :=
  dot_S10000x16_S16x1_S10000x1_1_0_0_1_n_n.lhsIdx_val_of_single rfl y q
theorem rhs_k (y : S10000x1.Idx) (q : dot_S10000x16_S16x1_S10000x1_1_0_0_1_n_n.contr.Idx) :
    (dot_S10000x16_S16x1_S10000x1_1_0_0_1_n_n.rhsIdx y q 0).val = (q ⟨0, by decide⟩).val :=
  dot_S10000x16_S16x1_S10000x1_1_0_0_1_n_n.rhsIdx_val_of_single rfl y q
theorem rhs_col (y : S10000x1.Idx) (q : dot_S10000x16_S16x1_S10000x1_1_0_0_1_n_n.contr.Idx) :
    (dot_S10000x16_S16x1_S10000x1_1_0_0_1_n_n.rhsIdx y q 1).val = (y 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- The left factor at an entry: the block's entry plus the bias of its column, negative part dropped. -/
theorem act_apply (x0 : Vec Ideal S10000x16 .f32) (x1 : Vec Ideal S1x16 .f32) (j : S10000x16.Idx) :
    maximumf (addf (shapeCast S10000x16 x0 shapeCasts_S10000x16_S10000x16) (broadcastTo S10000x16 (shapeCast S1x16 x1 shapeCasts_S1x16_S1x16) broadcasts_S1x16_S10000x16)) (broadcast S10000x16 (Scalar.ofBits (F := Ideal) .f32 0x00000000#32)) j
      = act x0 x1 j := by
  rw [shapeCast_self, shapeCast_self]
  show max (x0 j + broadcastTo S10000x16 x1 broadcasts_S1x16_S10000x16 j) (Ideal.ofBits .f32 0x00000000#32) = _
  rw [broadcastTo_apply x1 broadcasts_S1x16_S10000x16 j (ix2 (0 : Fin 1) (⟨(j 1).val, idx2_lt1 j⟩ : Fin 16)) (fun a => by
      match a with
      | ⟨0, _⟩ => show 0 = if (1 : Nat) = 1 then 0 else _; rw [if_pos rfl]
      | ⟨1, _⟩ => show (j 1).val = if (16 : Nat) = 1 then 0 else (j 1).val; rw [if_neg (by decide)]),
    Ideal.ofBits_zero_f32]
  rfl

/-- Entry (p, q) of what the body stores is Σ_k max (block (p, k) + b (0, k)) 0 · W (k, q). -/
theorem pay_apply (x0 : Vec Ideal S10000x16 .f32) (x1 : Vec Ideal S1x16 .f32) (x2 : Vec Ideal S16x1 .f32) (y : S10000x1.Idx) :
    k2_pay1 (F := Ideal) x0 x1 x2 y = ∑ k : Fin 16, act x0 x1 (onRow y k) * x2 (onCol y k) := by
  unfold k2_pay1
  refine (Ideal.matmul_constant_zero_apply dot_S10000x16_S16x1_S10000x1_1_0_0_1_n_n none _ _ y).trans ?_
  rw [← Equiv.sum_comp (contrEquiv1 dot_S10000x16_S16x1_S10000x1_1_0_0_1_n_n 16 rfl rfl).symm]
  refine Finset.sum_congr rfl fun k _ => ?_
  have hk := contrEquiv1_symm_val dot_S10000x16_S16x1_S10000x1_1_0_0_1_n_n 16 rfl rfl k
  have el : dot_S10000x16_S16x1_S10000x1_1_0_0_1_n_n.lhsIdx y ((contrEquiv1 dot_S10000x16_S16x1_S10000x1_1_0_0_1_n_n 16 rfl rfl).symm k) = onRow y k := funext fun a => Fin.ext (by
    match a with
    | ⟨0, _⟩ => exact lhs_row _ _
    | ⟨1, _⟩ => exact (lhs_k _ _).trans hk)
  have er : dot_S10000x16_S16x1_S10000x1_1_0_0_1_n_n.rhsIdx y ((contrEquiv1 dot_S10000x16_S16x1_S10000x1_1_0_0_1_n_n 16 rfl rfl).symm k) = onCol y k := funext fun a => Fin.ext (by
    match a with
    | ⟨0, _⟩ => exact (rhs_k _ _).trans hk
    | ⟨1, _⟩ => exact rhs_col _ _)
  rw [el, er]
  exact congrArg (· * x2 (onCol y k)) (act_apply x0 x1 (onRow y k))

/-! ## From the blocks to the array -/

variable (V : (c : Dev nD) → (b : Ref sig .tc) → Buf (Elt Ideal) ((c : Thread nD τ).loc b))

/-- Where each window's block sits at point t: the row blocks move with t, the bias and the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 2000000 in
/-- What point t writes back is block t of the whole layer. -/
theorem flushed_eq (c : Dev nD) (t : Fin cfg2.N) :
    (dat2 V c).flushed 3 t = ((cfg2.win 3).blk t).view.read (Elt Ideal) (lin (act (V c main_v55) (V c main_v56)) (V c main_arg6)) := by
  show (cfg2.win 3).cut (grid2.coords t) ((dat2 V c).after 3 t) = _
  rw [after2_3]
  unfold out2_3
  rw [View.canon_unit_zero hz]
  simp only [View.ld_unit_zero (S := S10000x16) hz, View.ld_unit_zero (S := S1x16) hz, View.ld_unit_zero (S := S16x1) hz]
  obtain ⟨e0, e1, e2, e3, e4, e5, e6, e7⟩ := idx_facts t
  funext y
  refine (pay_apply _ _ _ y).trans ?_
  show _ = lin (act (V c main_v55) (V c main_v56)) (V c main_arg6) (((cfg2.win 3).blk t).view.emb y)
  unfold lin
  beta_reduce
  refine Finset.sum_congr rfl fun k _ => ?_
  have h0 : ((cfg2.win 0).blk t).view.emb (onRow y k) = onRow (((cfg2.win 3).blk t).view.emb y) k := by
    funext a; apply Fin.ext
    match a with
    | ⟨0, _⟩ => show win2_0.index t (0 : Fin 2) * 10000 + 1 * (y 0).val = win2_3.index t (0 : Fin 2) * 10000 + 1 * (y 0).val; omega
    | ⟨1, _⟩ => show win2_0.index t (1 : Fin 2) * 16 + 1 * k.val = k.val; omega
  have h1 : ((cfg2.win 1).blk t).view.emb (ix2 (0 : Fin 1) (⟨((onRow y k) 1).val, idx2_lt1 (onRow y k)⟩ : Fin 16))
      = ix2 (0 : Fin 1) (⟨((onRow (((cfg2.win 3).blk t).view.emb y) k) 1).val, idx2_lt1 (onRow (((cfg2.win 3).blk t).view.emb y) k)⟩ : Fin 16) := by
    funext a; apply Fin.ext
    match a with
    | ⟨0, _⟩ => show win2_1.index t (0 : Fin 2) * 1 + 1 * 0 = 0; omega
    | ⟨1, _⟩ => show win2_1.index t (1 : Fin 2) * 16 + 1 * k.val = k.val; omega
  have h2 : ((cfg2.win 2).blk t).view.emb (onCol y k) = onCol (((cfg2.win 3).blk t).view.emb y) k := by
    funext a; apply Fin.ext
    match a with
    | ⟨0, _⟩ => show win2_2.index t (0 : Fin 2) * 16 + 1 * k.val = k.val; omega
    | ⟨1, _⟩ => show win2_2.index t (1 : Fin 2) * 1 + 1 * (y 1).val = win2_3.index t (1 : Fin 2) * 1 + 1 * (y 1).val; omega
  congr 1
  · unfold act
    beta_reduce
    congr 2
    · show V c main_v55 (((cfg2.win 0).blk t).view.emb (onRow y k)) = _
      exact congrArg (V c main_v55) h0
    · show V c main_v56 (((cfg2.win 1).blk t).view.emb (ix2 (0 : Fin 1) (⟨((onRow y k) 1).val, idx2_lt1 (onRow y k)⟩ : Fin 16))) = _
      exact congrArg (V c main_v56) h1
  · show V c main_arg6 (((cfg2.win 2).blk t).view.emb (onCol y k)) = _
    exact congrArg (V c main_arg6) h2

/-- An index of the result is in point t's block iff each coordinate is in the block's range on its axis. -/
theorem mem_blk (t : Fin cfg2.N) (i : S100000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v57).slice (win2_3.rect t)).set ↔ _
  rw [View.set_slice_whole, Rect.mem_set_unit]
  exact Iff.rfl

/-- Row r of the result is written by point r / 10000. -/
theorem cover (i : S100000x1.Idx) : ∃ t : Fin cfg2.N, (cfg2.win 3).flush t = true ∧ i ∈ ((cfg2.win 3).blk t).view.set := by
  have hi0 : (i 0).val < 100000 := idx2_lt0 i
  have hi1 : (i 1).val < 1 := idx2_lt1 i
  have hN : cfg2.N = 10 := N_2
  obtain ⟨t, ht⟩ : ∃ t : Fin cfg2.N, t.val = (i 0).val / 10000 := ⟨⟨(i 0).val / 10000, by rw [hN]; omega⟩, rfl⟩
  obtain ⟨_, _, _, _, _, _, e6, e7⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- After the region the result array is the whole layer. -/
theorem arr (c : Dev nD) : (dat2 V c).arrAt 3 cfg2.N = lin (act (V c main_v55) (V c main_v56)) (V c main_arg6) :=
  (dat2 V c).arrAt_eq_of_cover 3 (lin (act (V c main_v55) (V c main_v56)) (V c main_arg6)) (fun t _ => flushed_eq V c t) cover

end Cert.KernelIdeal.Dense2

end
-- ==== Proof.Boundary.lean ====
/-
  The contents of the buffers at each boundary of the idealized kernel's @main, as functions of the arguments.
  The first host stretch builds the edge ends and weights; each region leaves a dense layer's product; each later
  stretch aggregates the product over the edges; the last adds the output bias.  A buffer that a stretch or a region
  does not write keeps what the boundary before it held, so the edge data and the untouched arguments are carried
  from boundary to boundary unchanged.
-/
import proofs.«153207_j16724602650757_1_alg».proof.Proof.Gen.KernelIdeal.Frame
import proofs.«153207_j16724602650757_1_alg».proof.Proof.Spec
import proofs.«153207_j16724602650757_1_alg».proof.Proof.Dense0
import proofs.«153207_j16724602650757_1_alg».proof.Proof.Dense1
import proofs.«153207_j16724602650757_1_alg».proof.Proof.Dense2
import Idealize.ShloMosaic.Lib.StableHlo.Run

set_option maxRecDepth 16384

noncomputable section

namespace Cert.KernelIdeal.Boundary

open Cert.KernelIdeal Cert.KernelIdeal.Gen Cert.KernelIdeal.Spec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch: the edge ends, the edge weights, and the arguments as launched -/

theorem w1_src : W1 m ρ c (Proc.devRef .tc main_v3) = srcEnds (m ((c : Thread nD τ).loc main_arg1)) := by
  show after hostOps0 (W0 m ρ c) (Proc.devRef .tc main_v3) = _
  after_results_simp <;> rfl
theorem w1_dst : W1 m ρ c (Proc.devRef .tc main_v6) = dstEnds (m ((c : Thread nD τ).loc main_arg1)) := by
  show after hostOps0 (W0 m ρ c) (Proc.devRef .tc main_v6) = _
  after_results_simp <;> rfl
theorem w1_norm : W1 m ρ c (Proc.devRef .tc main_v26) = edgeNorm (m ((c : Thread nD τ).loc main_arg1)) := by
  show after hostOps0 (W0 m ρ c) (Proc.devRef .tc main_v26) = _
  after_results_simp <;> rfl
theorem w1_arg0 : W1 m ρ c (Proc.devRef .tc main_arg0) = m ((c : Thread nD τ).loc main_arg0) := by
  show after hostOps0 (W0 m ρ c) (Proc.devRef .tc main_arg0) = _
  after_results_simp <;> rfl
theorem w1_arg2 : W1 m ρ c (Proc.devRef .tc main_arg2) = m ((c : Thread nD τ).loc main_arg2) := by
  show after hostOps0 (W0 m ρ c) (Proc.devRef .tc main_arg2) = _
  after_results_simp <;> rfl
theorem w1_arg3 : W1 m ρ c (Proc.devRef .tc main_arg3) = m ((c : Thread nD τ).loc main_arg3) := by
  show after hostOps0 (W0 m ρ c) (Proc.devRef .tc main_arg3) = _
  after_results_simp <;> rfl
theorem w1_arg4 : W1 m ρ c (Proc.devRef .tc main_arg4) = m ((c : Thread nD τ).loc main_arg4) := by
  show after hostOps0 (W0 m ρ c) (Proc.devRef .tc main_arg4) = _
  after_results_simp <;> rfl
theorem w1_arg5 : W1 m ρ c (Proc.devRef .tc main_arg5) = m ((c : Thread nD τ).loc main_arg5) := by
  show after hostOps0 (W0 m ρ c) (Proc.devRef .tc main_arg5) = _
  after_results_simp <;> rfl
theorem w1_arg6 : W1 m ρ c (Proc.devRef .tc main_arg6) = m ((c : Thread nD τ).loc main_arg6) := by
  show after hostOps0 (W0 m ρ c) (Proc.devRef .tc main_arg6) = _
  after_results_simp <;> rfl
theorem w1_arg7 : W1 m ρ c (Proc.devRef .tc main_arg7) = m ((c : Thread nD τ).loc main_arg7) := by
  show after hostOps0 (W0 m ρ c) (Proc.devRef .tc main_arg7) = _
  after_results_simp <;> rfl

/-! ## After the first region: the first layer's product; everything else as before -/

theorem w2_src : W2 m ρ c (Proc.devRef .tc main_v3) = srcEnds (m ((c : Thread nD τ).loc main_arg1)) :=
  (W2_of_ne m ρ c main_v3 (by decide)).trans (w1_src m ρ c)
theorem w2_dst : W2 m ρ c (Proc.devRef .tc main_v6) = dstEnds (m ((c : Thread nD τ).loc main_arg1)) :=
  (W2_of_ne m ρ c main_v6 (by decide)).trans (w1_dst m ρ c)
theorem w2_norm : W2 m ρ c (Proc.devRef .tc main_v26) = edgeNorm (m ((c : Thread nD τ).loc main_arg1)) :=
  (W2_of_ne m ρ c main_v26 (by decide)).trans (w1_norm m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)
theorem w2_v27 : W2 m ρ c (Proc.devRef .tc main_v27) = lin (m ((c : Thread nD τ).loc main_arg0)) (m ((c : Thread nD τ).loc main_arg2)) := by
  refine (W2_arr m ρ c 2).trans ((Dense0.arr (V1 m ρ) c).trans ?_)
  show lin (W1 m ρ c (Proc.devRef .tc main_arg0)) (W1 m ρ c (Proc.devRef .tc main_arg2)) = _
  rw [w1_arg0, w1_arg2]

/-! ## After the second stretch: the first aggregation and the first bias as a row -/

theorem w3_src : W3 m ρ c (Proc.devRef .tc main_v3) = srcEnds (m ((c : Thread nD τ).loc main_arg1)) := by
  show after hostOps1 (W2 m ρ c) (Proc.devRef .tc main_v3) = _
  after_results_simp
  exact w2_src m ρ c
theorem w3_dst : W3 m ρ c (Proc.devRef .tc main_v6) = dstEnds (m ((c : Thread nD τ).loc main_arg1)) := by
  show after hostOps1 (W2 m ρ c) (Proc.devRef .tc main_v6) = _
  after_results_simp
  exact w2_dst m ρ c
theorem w3_norm : W3 m ρ c (Proc.devRef .tc main_v26) = edgeNorm (m ((c : Thread nD τ).loc main_arg1)) := by
  show after hostOps1 (W2 m ρ c) (Proc.devRef .tc main_v26) = _
  after_results_simp
  exact w2_norm m ρ c
theorem w3_arg4 : W3 m ρ c (Proc.devRef .tc main_arg4) = m ((c : Thread nD τ).loc main_arg4) := by
  show after hostOps1 (W2 m ρ c) (Proc.devRef .tc main_arg4) = _
  after_results_simp
  exact w2_arg4 m ρ c
theorem w3_arg5 : W3 m ρ c (Proc.devRef .tc main_arg5) = m ((c : Thread nD τ).loc main_arg5) := by
  show after hostOps1 (W2 m ρ c) (Proc.devRef .tc main_arg5) = _
  after_results_simp
  exact w2_arg5 m ρ c
theorem w3_arg6 : W3 m ρ c (Proc.devRef .tc main_arg6) = m ((c : Thread nD τ).loc main_arg6) := by
  show after hostOps1 (W2 m ρ c) (Proc.devRef .tc main_arg6) = _
  after_results_simp
  exact w2_arg6 m ρ c
theorem w3_arg7 : W3 m ρ c (Proc.devRef .tc main_arg7) = m ((c : Thread nD τ).loc main_arg7) := by
  show after hostOps1 (W2 m ρ c) (Proc.devRef .tc main_arg7) = _
  after_results_simp
  exact w2_arg7 m ρ c
theorem w3_v40 : W3 m ρ c (Proc.devRef .tc main_v40) = hidden1 (m ((c : Thread nD τ).loc main_arg0)) (m ((c : Thread nD τ).loc main_arg1)) (m ((c : Thread nD τ).loc main_arg2)) := by
  show after hostOps1 (W2 m ρ c) (Proc.devRef .tc main_v40) = _
  after_results_simp
  rw [w2_v27, w2_src, w2_dst, w2_norm]
  rfl
theorem w3_v41 : W3 m ρ c (Proc.devRef .tc main_v41) = rowBias32 (m ((c : Thread nD τ).loc main_arg3)) := by
  show after hostOps1 (W2 m ρ c) (Proc.devRef .tc main_v41) = _
  after_results_simp
  rw [w2_arg3]
  rfl

/-! ## After the second region: the second layer's product -/

theorem w4_src : W4 m ρ c (Proc.devRef .tc main_v3) = srcEnds (m ((c : Thread nD τ).loc main_arg1)) :=
  (W4_of_ne m ρ c main_v3 (by decide)).trans (w3_src m ρ c)
theorem w4_dst : W4 m ρ c (Proc.devRef .tc main_v6) = dstEnds (m ((c : Thread nD τ).loc main_arg1)) :=
  (W4_of_ne m ρ c main_v6 (by decide)).trans (w3_dst m ρ c)
theorem w4_norm : W4 m ρ c (Proc.devRef .tc main_v26) = edgeNorm (m ((c : Thread nD τ).loc main_arg1)) :=
  (W4_of_ne m ρ c main_v26 (by decide)).trans (w3_norm m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg7 : W4 m ρ c (Proc.devRef .tc main_arg7) = m ((c : Thread nD τ).loc main_arg7) :=
  (W4_of_ne m ρ c main_arg7 (by decide)).trans (w3_arg7 m ρ c)
theorem w4_v42 : W4 m ρ c (Proc.devRef .tc main_v42) = lin (act (hidden1 (m ((c : Thread nD τ).loc main_arg0)) (m ((c : Thread nD τ).loc main_arg1)) (m ((c : Thread nD τ).loc main_arg2))) (rowBias32 (m ((c : Thread nD τ).loc main_arg3)))) (m ((c : Thread nD τ).loc main_arg4)) := by
  refine (W4_arr m ρ c 3).trans ((Dense1.arr (V3 m ρ) c).trans ?_)
  show lin (act (W3 m ρ c (Proc.devRef .tc main_v40)) (W3 m ρ c (Proc.devRef .tc main_v41))) (W3 m ρ c (Proc.devRef .tc main_arg4)) = _
  rw [w3_v40, w3_v41, w3_arg4]

/-! ## After the third stretch: the second aggregation and the second bias as a row -/

theorem w5_src : W5 m ρ c (Proc.devRef .tc main_v3) = srcEnds (m ((c : Thread nD τ).loc main_arg1)) := by
  show after hostOps2 (W4 m ρ c) (Proc.devRef .tc main_v3) = _
  after_results_simp
  exact w4_src m ρ c
theorem w5_dst : W5 m ρ c (Proc.devRef .tc main_v6) = dstEnds (m ((c : Thread nD τ).loc main_arg1)) := by
  show after hostOps2 (W4 m ρ c) (Proc.devRef .tc main_v6) = _
  after_results_simp
  exact w4_dst m ρ c
theorem w5_norm : W5 m ρ c (Proc.devRef .tc main_v26) = edgeNorm (m ((c : Thread nD τ).loc main_arg1)) := by
  show after hostOps2 (W4 m ρ c) (Proc.devRef .tc main_v26) = _
  after_results_simp
  exact w4_norm m ρ c
theorem w5_arg6 : W5 m ρ c (Proc.devRef .tc main_arg6) = m ((c : Thread nD τ).loc main_arg6) := by
  show after hostOps2 (W4 m ρ c) (Proc.devRef .tc main_arg6) = _
  after_results_simp
  exact w4_arg6 m ρ c
theorem w5_arg7 : W5 m ρ c (Proc.devRef .tc main_arg7) = m ((c : Thread nD τ).loc main_arg7) := by
  show after hostOps2 (W4 m ρ c) (Proc.devRef .tc main_arg7) = _
  after_results_simp
  exact w4_arg7 m ρ c
theorem w5_v55 : W5 m ρ c (Proc.devRef .tc main_v55) = hidden2 (m ((c : Thread nD τ).loc main_arg0)) (m ((c : Thread nD τ).loc main_arg1)) (m ((c : Thread nD τ).loc main_arg2)) (m ((c : Thread nD τ).loc main_arg3)) (m ((c : Thread nD τ).loc main_arg4)) := by
  show after hostOps2 (W4 m ρ c) (Proc.devRef .tc main_v55) = _
  after_results_simp
  rw [w4_v42, w4_src, w4_dst, w4_norm]
  rfl
theorem w5_v56 : W5 m ρ c (Proc.devRef .tc main_v56) = rowBias16 (m ((c : Thread nD τ).loc main_arg5)) := by
  show after hostOps2 (W4 m ρ c) (Proc.devRef .tc main_v56) = _
  after_results_simp
  rw [w4_arg5]
  rfl

/-! ## After the third region: the third layer's product -/

theorem w6_src : W6 m ρ c (Proc.devRef .tc main_v3) = srcEnds (m ((c : Thread nD τ).loc main_arg1)) :=
  (W6_of_ne m ρ c main_v3 (by decide)).trans (w5_src m ρ c)
theorem w6_dst : W6 m ρ c (Proc.devRef .tc main_v6) = dstEnds (m ((c : Thread nD τ).loc main_arg1)) :=
  (W6_of_ne m ρ c main_v6 (by decide)).trans (w5_dst m ρ c)
theorem w6_norm : W6 m ρ c (Proc.devRef .tc main_v26) = edgeNorm (m ((c : Thread nD τ).loc main_arg1)) :=
  (W6_of_ne m ρ c main_v26 (by decide)).trans (w5_norm m ρ c)
theorem w6_arg7 : W6 m ρ c (Proc.devRef .tc main_arg7) = m ((c : Thread nD τ).loc main_arg7) :=
  (W6_of_ne m ρ c main_arg7 (by decide)).trans (w5_arg7 m ρ c)
theorem w6_v57 : W6 m ρ c (Proc.devRef .tc main_v57) = lin (act (hidden2 (m ((c : Thread nD τ).loc main_arg0)) (m ((c : Thread nD τ).loc main_arg1)) (m ((c : Thread nD τ).loc main_arg2)) (m ((c : Thread nD τ).loc main_arg3)) (m ((c : Thread nD τ).loc main_arg4))) (rowBias16 (m ((c : Thread nD τ).loc main_arg5)))) (m ((c : Thread nD τ).loc main_arg6)) := by
  refine (W6_arr m ρ c 3).trans ((Dense2.arr (V5 m ρ) c).trans ?_)
  show lin (act (W5 m ρ c (Proc.devRef .tc main_v55)) (W5 m ρ c (Proc.devRef .tc main_v56))) (W5 m ρ c (Proc.devRef .tc main_arg6)) = _
  rw [w5_v55, w5_v56, w5_arg6]

/-! ## After the last stretch: the output -/

theorem w7_out : W7 m ρ c (Proc.devRef .tc main_v72) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show after hostOps3 (W6 m ρ c) (Proc.devRef .tc main_v72) = _
  after_results_simp
  rw [w6_v57, w6_src, w6_dst, w6_norm, w6_arg7]
  rfl

end Cert.KernelIdeal.Boundary

end
-- ==== Proof.Layers.lean ====
/-
  The reference's stages are the same functions of the arguments.  Each of its three products is the matrix product
  lin  (the host product at the ideal instance is the plain sum over the contracted axis); each aggregation applies the
  same gather, scaling and scatter-add to it, over the same edge ends and weights; each bias-and-relu between layers is
  act  with the bias read as a one-row table; the last bias is added to every row.
-/
import proofs.«153207_j16724602650757_1_alg».proof.Proof.Gen.ReferenceIdeal.Read
import proofs.«153207_j16724602650757_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Layers

open Cert.KernelIdeal Cert.KernelIdeal.Gen Cert.KernelIdeal.Spec
open Idealize.ShloMosaic Idealize.ShloMosaic.ValueIdx

/-- A vector laid out as a one-row table, by a broadcast that adds the leading unit axis or by a reshape: the same table. -/
theorem row_eq {α : Type} {n : Nat} (x : (⟨1, ![n]⟩ : Shape).Idx → α)
    (hb : (⟨1, ![n]⟩ : Shape).BroadcastsInDim ⟨2, ![1, n]⟩ (![1] : Fin 1 → Fin 2))
    (hs : (⟨1, ![n]⟩ : Shape).ShapeCasts ⟨2, ![1, n]⟩) :
    broadcastInDim (⟨2, ![1, n]⟩ : Shape) ![1] hb x = shapeCast (⟨2, ![1, n]⟩ : Shape) x hs := by
  funext j
  rw [shapeCast_addUnit_apply]
  refine broadcastInDim_apply _ hb x j _ (fun a => ?_)
  match a with
  | ⟨0, _⟩ =>
    show (j 1).val = if n = 1 then 0 else (j 1).val
    have := idx2_lt1 j
    split_ifs <;> omega

variable (x0 : FArr S100000x128) (x1 : IArr S2x3200000) (x2 : FArr S128x32) (x3 : FArr S32) (x4 : FArr S32x16)
  (x5 : FArr S16) (x6 : FArr S16x1) (x7 : FArr S1)

/-! ## The three products -/

theorem prod1 : Cert.ReferenceIdeal.Read.val_main_v27 (F := Ideal) x0 x2 = lin x0 x2 := by
  funext i
  rw [Cert.ReferenceIdeal.Read.val_main_v27_apply]
  unfold lin
  beta_reduce
  refine Finset.sum_congr rfl fun k _ => ?_
  have el : Cert.ReferenceIdeal.Read.lidx_main_v27 i k = onRow i k := funext fun a => Fin.ext (by
    match a with
    | ⟨0, _⟩ => rfl
    | ⟨1, _⟩ => rfl)
  have er : Cert.ReferenceIdeal.Read.ridx_main_v27 i k = onCol i k := funext fun a => Fin.ext (by
    match a with
    | ⟨0, _⟩ => rfl
    | ⟨1, _⟩ => rfl)
  rw [el, er]

theorem prod2 : Cert.ReferenceIdeal.Read.val_main_v45 (F := Ideal) x0 x1 x2 x3 x4 = lin (Cert.ReferenceIdeal.Read.val_main_v44 (F := Ideal) x0 x1 x2 x3) x4 := by
  funext i
  rw [Cert.ReferenceIdeal.Read.val_main_v45_apply]
  unfold lin
  beta_reduce
  refine Finset.sum_congr rfl fun k _ => ?_
  have el : Cert.ReferenceIdeal.Read.lidx_main_v45 i k = onRow i k := funext fun a => Fin.ext (by
    match a with
    | ⟨0, _⟩ => rfl
    | ⟨1, _⟩ => rfl)
  have er : Cert.ReferenceIdeal.Read.ridx_main_v45 i k = onCol i k := funext fun a => Fin.ext (by
    match a with
    | ⟨0, _⟩ => rfl
    | ⟨1, _⟩ => rfl)
  rw [el, er]

theorem prod3 : Cert.ReferenceIdeal.Read.val_main_v63 (F := Ideal) x0 x1 x2 x3 x4 x5 x6 = lin (Cert.ReferenceIdeal.Read.val_main_v62 (F := Ideal) x0 x1 x2 x3 x4 x5) x6 := by
  funext i
  rw [Cert.ReferenceIdeal.Read.val_main_v63_apply]
  unfold lin
  beta_reduce
  refine Finset.sum_congr rfl fun k _ => ?_
  have el : Cert.ReferenceIdeal.Read.lidx_main_v63 i k = onRow i k := funext fun a => Fin.ext (by
    match a with
    | ⟨0, _⟩ => rfl
    | ⟨1, _⟩ => rfl)
  have er : Cert.ReferenceIdeal.Read.ridx_main_v63 i k = onCol i k := funext fun a => Fin.ext (by
    match a with
    | ⟨0, _⟩ => rfl
    | ⟨1, _⟩ => rfl)
  rw [el, er]

/-! ## The aggregations: the same operations over the same edge data -/

theorem agg1st : Cert.ReferenceIdeal.Read.val_main_v40 (F := Ideal) x0 x1 x2 = agg32 (Cert.ReferenceIdeal.Read.val_main_v27 (F := Ideal) x0 x2) x1 := rfl
theorem agg2nd : Cert.ReferenceIdeal.Read.val_main_v58 (F := Ideal) x0 x1 x2 x3 x4 = agg16 (Cert.ReferenceIdeal.Read.val_main_v45 (F := Ideal) x0 x1 x2 x3 x4) x1 := rfl
theorem agg3rd : Cert.ReferenceIdeal.Read.val_main_v75 (F := Ideal) x0 x1 x2 x3 x4 x5 x6 = agg1 (Cert.ReferenceIdeal.Read.val_main_v63 (F := Ideal) x0 x1 x2 x3 x4 x5 x6) x1 := rfl

/-! ## Bias and relu between the layers -/

theorem row32 : Cert.ReferenceIdeal.Read.val_main_v41 (F := Ideal) x3 = rowBias32 x3 := row_eq x3 _ _
theorem row16 : Cert.ReferenceIdeal.Read.val_main_v59 (F := Ideal) x5 = rowBias16 x5 := row_eq x5 _ _

theorem relu1 : Cert.ReferenceIdeal.Read.val_main_v44 (F := Ideal) x0 x1 x2 x3 = act (Cert.ReferenceIdeal.Read.val_main_v40 (F := Ideal) x0 x1 x2) (rowBias32 x3) := by
  funext i
  rw [Cert.ReferenceIdeal.Read.val_main_v44_apply, Cert.ReferenceIdeal.Read.val_main_v43_apply, Cert.ReferenceIdeal.Read.val_main_v42_apply, Cert.ReferenceIdeal.Read.val_main_call0_v0_apply,
    Cert.ReferenceIdeal.Read.val_main_call0_cst_apply, row32]
  unfold act
  beta_reduce
  show max (_ + rowBias32 x3 _) (Ideal.ofBits .f32 0x00000000#32) = max (_ + rowBias32 x3 _) 0
  rw [Ideal.ofBits_zero_f32]
  congr 3
  funext a
  match a with
  | ⟨0, _⟩ => rfl
  | ⟨1, _⟩ => rfl

theorem relu2 : Cert.ReferenceIdeal.Read.val_main_v62 (F := Ideal) x0 x1 x2 x3 x4 x5 = act (Cert.ReferenceIdeal.Read.val_main_v58 (F := Ideal) x0 x1 x2 x3 x4) (rowBias16 x5) := by
  funext i
  rw [Cert.ReferenceIdeal.Read.val_main_v62_apply, Cert.ReferenceIdeal.Read.val_main_v61_apply, Cert.ReferenceIdeal.Read.val_main_v60_apply, Cert.ReferenceIdeal.Read.val_main_call1_v0_apply,
    Cert.ReferenceIdeal.Read.val_main_call1_cst_apply, row16]
  unfold act
  beta_reduce
  show max (_ + rowBias16 x5 _) (Ideal.ofBits .f32 0x00000000#32) = max (_ + rowBias16 x5 _) 0
  rw [Ideal.ofBits_zero_f32]
  congr 3
  funext a
  match a with
  | ⟨0, _⟩ => rfl
  | ⟨1, _⟩ => rfl

/-! ## The whole reference is the network -/

theorem layer1 : Cert.ReferenceIdeal.Read.val_main_v40 (F := Ideal) x0 x1 x2 = hidden1 x0 x1 x2 := by
  rw [agg1st, prod1]; rfl
theorem layer2 : Cert.ReferenceIdeal.Read.val_main_v58 (F := Ideal) x0 x1 x2 x3 x4 = hidden2 x0 x1 x2 x3 x4 := by
  rw [agg2nd, prod2, relu1, layer1]; rfl
theorem layer3 : Cert.ReferenceIdeal.Read.val_main_v75 (F := Ideal) x0 x1 x2 x3 x4 x5 x6 = hidden3 x0 x1 x2 x3 x4 x5 x6 := by
  rw [agg3rd, prod3, relu2, layer2]; rfl

theorem whole : Cert.ReferenceIdeal.Read.val_main_v78 (F := Ideal) x0 x1 x2 x3 x4 x5 x6 x7 = output x0 x1 x2 x3 x4 x5 x6 x7 := by
  unfold Cert.ReferenceIdeal.Read.val_main_v78 output
  rw [layer3]
  congr 1
  unfold Cert.ReferenceIdeal.Read.val_main_v77
  congr 1
  exact row_eq x7 _ _

end Cert.ReferenceIdeal.Layers

end
-- ==== Proof.lean ====
/-
  The kernel and its reference compute the same three-layer graph convolution.

  Both programs build the edge ends (the edge list with a self loop per node appended), the degree of every node, and
  the weight dis[src]·dis[dst] of every edge; both then alternate a dense layer with an aggregation over the edges
  (gather the layer's rows at the source ends, scale by the edge weights, add up at the destination ends), with a bias
  and a relu between layers and a bias at the end.  They differ only in where the dense layers run — the kernel's in
  three TensorCore regions of ten row blocks each, with bias and relu fused in front of the second and third products;
  the reference's as whole host products — and in how a bias vector is laid out as a row.  At the ideal instance a
  row-blocked product with operands narrowed to bf16 is the product of the whole arrays, entry by entry the same sum
  over the contracted axis, so both results are the one function  Spec.output  of the eight arguments, whatever
  (finite or infinite) values these hold: no law beyond reindexing a finite sum is used.
-/
import proofs.«153207_j16724602650757_1_alg».proof.Defs
import proofs.«153207_j16724602650757_1_alg».proof.Proof.Gen.Kernel
import proofs.«153207_j16724602650757_1_alg».proof.Proof.Gen.Kernel.Skeleton
import proofs.«153207_j16724602650757_1_alg».proof.Proof.Gen.Kernel.Launch
import proofs.«153207_j16724602650757_1_alg».proof.Proof.Gen.Kernel.Points
import proofs.«153207_j16724602650757_1_alg».proof.Proof.Gen.Kernel.Frame
import proofs.«153207_j16724602650757_1_alg».proof.Proof.Gen.KernelIdeal
import proofs.«153207_j16724602650757_1_alg».proof.Proof.Gen.KernelIdeal.Skeleton
import proofs.«153207_j16724602650757_1_alg».proof.Proof.Gen.KernelIdeal.Launch
import proofs.«153207_j16724602650757_1_alg».proof.Proof.Gen.KernelIdeal.Points
import proofs.«153207_j16724602650757_1_alg».proof.Proof.Gen.KernelIdeal.Frame
import proofs.«153207_j16724602650757_1_alg».proof.Proof.Gen.ReferenceIdeal
import proofs.«153207_j16724602650757_1_alg».proof.Proof.Gen.Pre_finite_inputs
import proofs.«153207_j16724602650757_1_alg».proof.Proof.Gen.ReferenceIdeal.Run
import proofs.«153207_j16724602650757_1_alg».proof.Proof.Gen.ReferenceIdeal.Read
import proofs.«153207_j16724602650757_1_alg».proof.Proof.Spec
import proofs.«153207_j16724602650757_1_alg».proof.Proof.Result
import proofs.«153207_j16724602650757_1_alg».proof.Proof.Boundary
import proofs.«153207_j16724602650757_1_alg».proof.Proof.Layers
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference is a straight line of host operations: it runs, and none of them writes an argument. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-- Both idealized programs end with the network's output of their (equal) arguments. -/
theorem algebraic : Cert.algebraic_KernelIdeal_ReferenceIdeal := by
  intro m ρ m' ρ' _ hagree
  refine ⟨fun c => Cert.KernelIdeal.Spec.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Boundary.w7_out m ρ c), (h c).2⟩)
      (Cert.KernelIdeal.Result.run (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v78_eq, Cert.ReferenceIdeal.Layers.whole, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
